-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x4096 : Shape := ⟨3, ![4, 1, 4096]⟩
abbrev S1x3x1024 : Shape := ⟨3, ![1, 3, 1024]⟩
abbrev S1x1024x3 : Shape := ⟨3, ![1, 1024, 3]⟩
abbrev S1x1x1024 : Shape := ⟨3, ![1, 1, 1024]⟩
abbrev S1x1x4096 : Shape := ⟨3, ![1, 1, 4096]⟩
abbrev S1x1024 : Shape := ⟨2, ![1, 1024]⟩
abbrev S1x4096 : Shape := ⟨2, ![1, 4096]⟩
abbrev S3x1024 : Shape := ⟨2, ![3, 1024]⟩
abbrev S1024x3 : Shape := ⟨2, ![1024, 3]⟩
abbrev S1024x1024 : Shape := ⟨2, ![1024, 1024]⟩
abbrev S1024x1 : Shape := ⟨2, ![1024, 1]⟩
abbrev S1024 : Shape := ⟨1, ![1024]⟩
abbrev S4x4096 : Shape := ⟨2, ![4, 4096]⟩
abbrev S_ : Shape := ⟨0, ![]⟩
abbrev S4 : Shape := ⟨1, ![4]⟩

abbrev nBuf : Space → Nat
  | .hbm => 19
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x4096, .f32⟩
  | .hbm, ⟨4, _⟩ => ⟨S4x1x4096, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x1024, .f32⟩
  | .local _ .vmem, ⟨9, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1024_i32 : BitVec 32 := 1024#32
  let v56 : BitVec 32 := Scalar.muli arg2 c1024_i32
  v56
def k0_off1 (i : grid0.Coords) : Fin 2 → Nat :=
  let c0_15 : Index := 0#32
  let arg2 : BitVec 32 := BitVec.ofNat 32 (i 2).val
  let c1024_i32 : BitVec 32 := 1024#32
  let v56 : BitVec 32 := Scalar.muli arg2 c1024_i32
  let v57 : BitVec 32 := v56
  let v58 : Index := Scalar.indexCast v57
  ![0, v58.toNat]
def k0_cond3 (i : grid0.Coords) : BitVec 1 :=
  let arg2 : BitVec 32 := BitVec.ofNat 32 (i 2).val
  let c3_i32 : BitVec 32 := 3#32
  let v65 : BitVec 1 := Scalar.cmpi .eq arg2 c3_i32
  let v66 : BitVec 32 := Scalar.extui v65
  let c0_i32_17 : BitVec 32 := 0#32
  let v67 : BitVec 1 := Scalar.cmpi .ne v66 c0_i32_17
  v67

def k0_cond4 (i : grid0.Coords) : BitVec 1 :=
  let arg1 : BitVec 32 := BitVec.ofNat 32 (i 1).val
  let c3_i32_18 : BitVec 32 := 3#32
  let v68 : BitVec 1 := Scalar.cmpi .eq arg1 c3_i32_18
  let arg2 : BitVec 32 := BitVec.ofNat 32 (i 2).val
  let c3_i32_19 : BitVec 32 := 3#32
  let v69 : BitVec 1 := Scalar.cmpi .eq arg2 c3_i32_19
  let v70 : BitVec 1 := Scalar.andi v68 v69
  let v71 : BitVec 32 := Scalar.extui v70
  let c0_i32_20 : BitVec 32 := 0#32
  let v72 : BitVec 1 := Scalar.cmpi .ne v71 c0_i32_20
  v72

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x4096x3_S4x3x4096_0_2_1 : S4x4096x3.Transposes [0, 2, 1] S4x3x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  shapeCasts_S1024x1_S1024 : S1024x1.ShapeCasts S1024
  shapeCasts_S1024_S1024x1 : S1024.ShapeCasts S1024x1
  slices_S3x1024_o0_0_S1x1024 : S3x1024.Slices ![0, 0] S1x1024
  shapeCasts_S1x1024_S1024 : S1x1024.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  reduces_S1024x1024_S1024_2 : S1024x1024.Reduces [1] S1024
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x1x4096_S4x4096 : S4x1x4096.ShapeCasts S4x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  k0_mult1_dvd : ∀ i : grid0.Coords, 128 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x4096.size a
  hwx0_0 : ∀ i : grid0.Coords, EltTy.bits .f32 = 32 ∨ (Rect.block (s := S4x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x4096x3.size a
  hwx0_1 : ∀ i : grid0.Coords, EltTy.bits .f32 = 32 ∨ (Rect.block (s := S4x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x4096.size a
  hwx0_2 : ∀ i : grid0.Coords, EltTy.bits .f32 = 32 ∨ (Rect.block (s := S4x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩
abbrev S4 : Shape := ⟨1, ![4]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.ChamferSpec.lean ====
/-
  The mathematics both programs compute. Two clouds of 4096 points in 3-space per batch entry (four entries):
  the table of squared distances `D b n m = Σ_d (A b n d − B b m d)²`, for every point of the first cloud the
  distance to the nearest point of the second (`rowMin`: the least of `√D` along `m`), for every point of the
  second the distance to the nearest of the first (`colMin`: the least along `n`). One program takes the
  square root of every entry and then the minimum; the other keeps a running minimum of the squares, clamps it
  at zero and takes one root at the end. They agree because a sum of squares is never negative and the root is
  monotone, so it commutes with a minimum over a finite family. The facts below say exactly that, over the
  extended reals, with no finiteness assumption: `(x − y)² = (y − x)²` holds at the infinities too.
-/
import Idealize.ShloMosaic.PureOps.Ideal
import Idealize.ShloMosaic.Lib.ValueIdx

noncomputable section

namespace Cert.Chamfer

open Idealize.ShloMosaic Idealize.ShloMosaic.ValueIdx

/-- The square of an extended real. -/
def sqr (x : EReal) : EReal := x * x

theorem sqr_nonneg (x : EReal) : 0 ≤ sqr x := by
  unfold sqr
  induction x using EReal.rec with
  | bot => simp
  | top => simp
  | coe r => rw [← EReal.coe_mul]; exact EReal.coe_nonneg.2 (mul_self_nonneg r)

/-- A difference and its reverse have one square, at the infinities too. -/
theorem sqr_sub_comm (x y : EReal) : sqr (x - y) = sqr (y - x) := by
  unfold sqr
  induction x using EReal.rec <;> induction y using EReal.rec <;>
    first
    | rfl
    | (simp only [← EReal.coe_sub, ← EReal.coe_mul]; congr 1; ring)
    | simp

/-- The squared distance between point `n` of the first cloud and point `m` of the second, in batch entry `b`. -/
def sqDist (A B : (⟨3, ![4, 4096, 3]⟩ : Shape).Idx → EReal) (b : Fin 4) (n m : Fin 4096) : EReal :=
  ∑ d : Fin 3, sqr (A (ix3 b n d) - B (ix3 b m d))

theorem sqDist_nonneg (A B : (⟨3, ![4, 4096, 3]⟩ : Shape).Idx → EReal) (b : Fin 4) (n m : Fin 4096) :
    0 ≤ sqDist A B b n m :=
  Finset.sum_nonneg fun d _ => sqr_nonneg _

/-- The root is monotone on the extended reals (with its conventions: `⊥` below zero, `√⊤ = ⊤`). -/
theorem sqrt_mono {x y : EReal} (h : x ≤ y) : Ideal.sqrt x ≤ Ideal.sqrt y := by
  induction x using EReal.rec with
  | bot => simp
  | top => rw [top_le_iff.1 h]
  | coe r =>
    induction y using EReal.rec with
    | bot => exact absurd h (by simp)
    | top => simp
    | coe s =>
      have hrs : r ≤ s := EReal.coe_le_coe_iff.1 h
      simp only [Ideal.sqrt_coe]
      split_ifs with h1 h2 h2
      · exact le_refl _
      · exact bot_le
      · exact absurd (lt_of_le_of_lt hrs h2) h1
      · exact EReal.coe_le_coe_iff.2 (Real.sqrt_le_sqrt hrs)

/-- THE LAW. If `I` is the greatest lower bound of a finite nonempty family of nonnegative extended reals, then the
    root of `I` clamped at zero is the minimum, from `⊤`, of the members' roots. -/
theorem sqrt_clamp_inf {ι : Type} [Fintype ι] [Nonempty ι] (f : ι → EReal) (hf : ∀ i, 0 ≤ f i) (I : EReal)
    (hI : ∀ c : EReal, c ≤ I ↔ ∀ i, c ≤ f i) :
    Ideal.sqrt (max I 0) = (Finset.univ : Finset ι).fold min ⊤ (fun i => Ideal.sqrt (f i)) := by
  obtain ⟨i0, -, hmin⟩ := Finset.exists_min_image (Finset.univ : Finset ι) f Finset.univ_nonempty
  have hle : ∀ i, I ≤ f i := (hI I).1 le_rfl
  have hI0 : I = f i0 := le_antisymm (hle i0) ((hI (f i0)).2 fun i => hmin i (Finset.mem_univ i))
  have h0 : 0 ≤ I := (hI 0).2 hf
  rw [max_eq_left h0]
  refine eq_of_forall_le_iff fun c => ?_
  rw [Finset.le_fold_min]
  constructor
  · intro hc
    exact ⟨le_top, fun i _ => hc.trans (sqrt_mono (hle i))⟩
  · intro hc
    rw [hI0]
    exact hc.2 i0 (Finset.mem_univ i0)

/-- For every point of the first cloud, the distance to the nearest point of the second: the least root along `m`. -/
def rowMin (A B : (⟨3, ![4, 4096, 3]⟩ : Shape).Idx → EReal) : FVec Ideal (⟨2, ![4, 4096]⟩ : Shape) .f32 :=
  fun i => (Finset.univ : Finset (Fin 4096)).fold min ⊤
    (fun m => Ideal.sqrt (sqDist A B ⟨(i 0).val, (i 0).isLt⟩ ⟨(i 1).val, (i 1).isLt⟩ m))

/-- For every point of the second cloud, the distance to the nearest point of the first: the least root along `n`. -/
def colMin (A B : (⟨3, ![4, 4096, 3]⟩ : Shape).Idx → EReal) : FVec Ideal (⟨2, ![4, 4096]⟩ : Shape) .f32 :=
  fun i => (Finset.univ : Finset (Fin 4096)).fold min ⊤
    (fun n => Ideal.sqrt (sqDist A B ⟨(i 0).val, (i 0).isLt⟩ n ⟨(i 1).val, (i 1).isLt⟩))

theorem rowMin_apply (A B : (⟨3, ![4, 4096, 3]⟩ : Shape).Idx → EReal) (b : Fin 4) (n : Fin 4096) :
    rowMin A B (ix2 b n) = (Finset.univ : Finset (Fin 4096)).fold min ⊤ (fun m => Ideal.sqrt (sqDist A B b n m)) := rfl

theorem colMin_apply (A B : (⟨3, ![4, 4096, 3]⟩ : Shape).Idx → EReal) (b : Fin 4) (m : Fin 4096) :
    colMin A B (ix2 b m) = (Finset.univ : Finset (Fin 4096)).fold min ⊤ (fun n => Ideal.sqrt (sqDist A B b n m)) := rfl

/-- What both programs do with the two tables of nearest distances: per batch entry the two row sums added and
    divided by 8192, then the mean of the four. Kept as ONE function of the two tables; it is never opened. -/
def tail (R C : FVec Ideal (⟨2, ![4, 4096]⟩ : Shape) .f32)
    (h1 : (⟨2, ![4, 4096]⟩ : Shape).ReducesTo [1] (⟨1, ![4]⟩ : Shape)) (h0 : 0 < (⟨0, ![]⟩ : Shape).numel)
    (hb : (⟨0, ![]⟩ : Shape).BroadcastsInDim (⟨1, ![4]⟩ : Shape) (![] : Fin 0 → Fin (⟨1, ![4]⟩ : Shape).rank))
    (h2 : (⟨1, ![4]⟩ : Shape).ReducesTo [0] (⟨0, ![]⟩ : Shape)) : FVec Ideal (⟨0, ![]⟩ : Shape) .f32 :=
  Host.divf (F := Ideal)
    (Host.reduceAdd (F := Ideal)
      (Host.divf (F := Ideal)
        (addf (Host.reduceAdd (F := Ideal) R (constant (F := Ideal) (⟨0, ![]⟩ : Shape) .f32 0x00000000#32) h1 h0)
              (Host.reduceAdd (F := Ideal) C (constant (F := Ideal) (⟨0, ![]⟩ : Shape) .f32 0x00000000#32) h1 h0))
        (broadcastInDim (⟨1, ![4]⟩ : Shape) ![] hb (constant (F := Ideal) (⟨0, ![]⟩ : Shape) .f32 0x46000000#32)))
      (constant (F := Ideal) (⟨0, ![]⟩ : Shape) .f32 0x00000000#32) h2 h0)
    (constant (F := Ideal) (⟨0, ![]⟩ : Shape) .f32 0x40800000#32)

end Cert.Chamfer

end
-- ==== Proof.ChamferBlocks.lean ====
/-
  Where a grid point sits and what its input blocks hold. The 64 points run over (batch entry b, tile i of the
  first cloud, tile j of the second), j fastest: point t has b = t / 16, i = t / 4 % 4, j = t % 4. The first
  input's block at t is rows 1024·i … 1024·i + 1023 of cloud one (stored with its last two axes exchanged), the
  second's is rows 1024·j … 1024·j + 1023 of cloud two.
-/
import proofs.«140225_j17952963297894_2_alg».proof.Proof.Gen.KernelIdeal.Frame
import proofs.«140225_j17952963297894_2_alg».proof.Proof.ChamferSpec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.Blocks

open Cert.KernelIdeal Cert.KernelIdeal.Gen

theorem N64 : cfg0.N = 64 := N_0

/-- The batch entry of point `t`. -/
def pb (t : Fin cfg0.N) : Fin 4 := ⟨t.val / 16, by have := t.isLt; have h := N64; omega⟩
/-- The first cloud's tile at point `t`. -/
def pi (t : Fin cfg0.N) : Fin 4 := ⟨t.val / 4 % 4, by omega⟩
/-- The second cloud's tile at point `t`. -/
def pj (t : Fin cfg0.N) : Fin 4 := ⟨t.val % 4, by omega⟩
/-- Row `q` of tile `i`. -/
def tileIx (i : Fin 4) (q : Fin 1024) : Fin 4096 := ⟨i.val * 1024 + q.val, by have := i.isLt; have := q.isLt; omega⟩

variable (m : (ℓ : Loc nD τ sig) → Buf (Elt Ideal) ℓ)

/-- Which block of its array each input window stages at point `t`: decided once over the grid. -/
theorem index0 : ∀ t : Fin cfg0.N, win0_0.index t (0 : Fin 3) = t.val / 16 ∧ win0_0.index t (1 : Fin 3) = 0
    ∧ win0_0.index t (2 : Fin 3) = t.val / 4 % 4 :=
  (by decide +kernel : ∀ t : Fin grid0.N, win0_0.index t (0 : Fin 3) = t.val / 16 ∧ win0_0.index t (1 : Fin 3) = 0
    ∧ win0_0.index t (2 : Fin 3) = t.val / 4 % 4)

theorem index1 : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, win0_1.index t (0 : Fin 3) = t.val / 16 ∧ win0_1.index t (1 : Fin 3) = t.val % 4
    ∧ win0_1.index t (2 : Fin 3) = 0)

/-- The array the first window stages is cloud one with its last two axes exchanged: the one host operation before
    the region. -/
theorem v0_eq (c : Dev nD) :
    (V m c main_v0 : FVec Ideal S4x3x4096 .f32)
      = transpose S4x3x4096 [0, 2, 1] (m ((c : Thread nD τ).loc main_arg0)) Facts₀.transposes_S4x4096x3_S4x3x4096_0_2_1 := by
  show StableHlo.after hostOps0 (fun b => m (c, b)) (Proc.devRef .tc main_v0) = _
  after_results

/-- The first input's block at point `t`, entry (0, d, q): coordinate `d` of point `1024·i + q` of cloud one. -/
theorem blk0_at (c : Dev nD) (t : Fin cfg0.N) (d : Fin 3) (q : Fin 1024) :
    (iblk m c 0 t : Vec Ideal S1x3x1024 .f32) (ix3 (0 : Fin 1) d q)
      = m ((c : Thread nD τ).loc main_arg0) (ix3 (pb t) (tileIx (pi t) q) d) := by
  have hi := index0 t
  unfold iblk
  rw [View.read_apply]
  show V m c main_v0 (((cfg0.win 0).blk t).view.emb (ix3 (0 : Fin 1) d q)) = _
  have he : ((cfg0.win 0).blk t).view.emb (ix3 (0 : Fin 1) d q) = ix3 (pb t) d (tileIx (pi t) q) := by
    funext a
    apply Fin.ext
    match a with
    | ⟨0, _⟩ => show win0_0.index t 0 * 1 + 1 * 0 = t.val / 16; rw [hi.1]; omega
    | ⟨1, _⟩ => show win0_0.index t 1 * 3 + 1 * d.val = d.val; rw [hi.2.1]; omega
    | ⟨2, _⟩ => show win0_0.index t 2 * 1024 + 1 * q.val = t.val / 4 % 4 * 1024 + q.val; rw [hi.2.2]; omega
  rw [he, v0_eq]
  exact transpose_ix3_021_apply _ _ (pb t) d (tileIx (pi t) q)

/-- The second input's block at point `t`, entry (0, p, d): coordinate `d` of point `1024·j + p` of cloud two. -/
theorem blk1_at (c : Dev nD) (t : Fin cfg0.N) (p : Fin 1024) (d : Fin 3) :
    (iblk m c 1 t : Vec Ideal S1x1024x3 .f32) (ix3 (0 : Fin 1) p d)
      = m ((c : Thread nD τ).loc main_arg1) (ix3 (pb t) (tileIx (pj t) p) d) := by
  have hi := index1 t
  unfold iblk
  rw [View.read_apply]
  show V m c main_arg1 (((cfg0.win 1).blk t).view.emb (ix3 (0 : Fin 1) p d)) = _
  have he : ((cfg0.win 1).blk t).view.emb (ix3 (0 : Fin 1) p d) = ix3 (pb t) (tileIx (pj t) p) d := by
    funext a
    apply Fin.ext
    match a with
    | ⟨0, _⟩ => show win0_1.index t 0 * 1 + 1 * 0 = t.val / 16; rw [hi.1]; omega
    | ⟨1, _⟩ => show win0_1.index t 1 * 1024 + 1 * p.val = t.val % 4 * 1024 + p.val; rw [hi.2.1]; omega
    | ⟨2, _⟩ => show win0_1.index t 2 * 3 + 1 * d.val = d.val; rw [hi.2.2]; omega
  rw [he, V_main_arg1]

end Cert.Chamfer.Blocks

end
-- ==== Proof.ChamferPieces.lean ====
/-
  What each of the body's five control cases leaves in the two carried running-minimum buffers and in the two
  outputs' blocks, as the body's own pure values of what it loaded: the row buffer (one entry per point of the
  first cloud's tile) becomes the old entry against the tile's column minimum — the old entry being +inf where the
  case first resets it —; the column buffer (one entry per point of the second cloud) changes only inside the
  current tile's stretch of 1024 entries, the old entry against the tile's row minimum; an output block is the root of
  the clamped buffer just updated.
-/
import proofs.«140225_j17952963297894_2_alg».proof.Proof.Gen.KernelIdeal.Frame
import Idealize.ShloMosaic.Lib.Pipeline.Value
import Idealize.ShloMosaic.Lib.Tactic
import Idealize.ShloMosaic.Lib.WritesUnit

noncomputable section

open Idealize.ShloMosaic Idealize.ShloMosaic.TcCoe Idealize.SL.Sem
open Idealize.ShloMosaic.Pipeline (Dat)

namespace Cert.Chamfer.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Case A (the first point of a batch entry), the row minima: reset to +inf, then the tile's column minima. -/
theorem sA0 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i)
    (x0 : Vec F S1x3x1024 .f32) (x1 : Vec F S1x1024x3 .f32) :
    sout0_A_0 c i arg3 harg3 arg4 harg4 arg5 harg5 arg6 harg6 arg7 harg7 arg8 harg8 hc0 hc1 hc2 hc3 x0 x1 = k0_pay2 (k0_pay8 x0 x1) (k0_pay1 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_run_names
  rw [View.canon_cons_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case A, the column minima, inside the tile's stretch: reset to +inf everywhere, then the tile's row minima. -/
theorem sA1_hit (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i)
    (x0 : Vec F S1x3x1024 .f32) (x1 : Vec F S1x1024x3 .f32)
    (y : S1x4096.Idx) (x : S1x1024.Idx) (hx : ∀ a, (y a).val = k0_off1 i a + (x a).val) :
    sout0_A_1 c i arg3 harg3 arg4 harg4 arg5 harg5 arg6 harg6 arg7 harg7 arg8 harg8 hc0 hc1 hc2 hc3 x0 x1 y
      = k0_pay4 (k0_pay9 x0 x1) (View.ld (k0_pay3 (F := F)) (Rect.unit (s := S1x4096) (k0_off1 i) S1x1024.size (k0_off1_inb i))) x := by
  unfold sout0_A_1
  unfold kernelRun0_A
  dsimp only
  sl_unfold_run_names
  refine (View.read_writes_cons_unit_of_mem _ _ (k0_off1_inb i) _ _ y x rfl hx).trans ?_
  rw [View.readAt_writes_junk_eq_canon, View.canon_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case A, the column minima, outside the tile's stretch: the reset value. -/
theorem sA1_miss (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i)
    (x0 : Vec F S1x3x1024 .f32) (x1 : Vec F S1x1024x3 .f32)
    (y : S1x4096.Idx) (ha : (y 1).val < k0_off1 i 1 ∨ k0_off1 i 1 + 1024 ≤ (y 1).val) :
    sout0_A_1 c i arg3 harg3 arg4 harg4 arg5 harg5 arg6 harg6 arg7 harg7 arg8 harg8 hc0 hc1 hc2 hc3 x0 x1 y = k0_pay3 (F := F) y := by
  unfold sout0_A_1
  unfold kernelRun0_A
  dsimp only
  sl_unfold_run_names
  refine (View.read_writes_cons_unit_of_not_mem _ _ (k0_off1_inb i) _ _ y rfl (1 : Fin 2) ha).trans ?_
  rw [View.read_writes_junk_eq_canon, View.canon_unit_zero hz2]

/-- Case B (inside a sweep), the row minima: the old entry against the tile's column minimum. -/
theorem sB0 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i)
    (x0 : Vec F S1x3x1024 .f32) (x1 : Vec F S1x1024x3 .f32) (xs0 : Vec F S1x1024 .f32) (xs1 : Vec F S1x4096 .f32) :
    sout0_B_0 c i arg3 harg3 arg4 harg4 arg5 harg5 arg6 harg6 arg7 harg7 arg8 harg8 hc0 hc1 hc2 hc3 x0 x1 xs0 xs1 = k0_pay2 (k0_pay8 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_run_names
  rw [View.canon_cons_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case B, the column minima, inside the tile's stretch: the old entry against the tile's row minimum. -/
theorem sB1_hit (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i)
    (x0 : Vec F S1x3x1024 .f32) (x1 : Vec F S1x1024x3 .f32) (xs0 : Vec F S1x1024 .f32) (xs1 : Vec F S1x4096 .f32)
    (y : S1x4096.Idx) (x : S1x1024.Idx) (hx : ∀ a, (y a).val = k0_off1 i a + (x a).val) :
    sout0_B_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x1024.size (k0_off1_inb i))) x := by
  unfold sout0_B_1
  unfold kernelRun0_B
  dsimp only
  sl_unfold_run_names
  refine (View.read_writes_cons_unit_of_mem _ _ (k0_off1_inb i) _ [] y x rfl hx).trans ?_
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case B, the column minima, outside the tile's stretch: untouched. -/
theorem sB1_miss (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i)
    (x0 : Vec F S1x3x1024 .f32) (x1 : Vec F S1x1024x3 .f32) (xs0 : Vec F S1x1024 .f32) (xs1 : Vec F S1x4096 .f32)
    (y : S1x4096.Idx) (ha : (y 1).val < k0_off1 i 1 ∨ k0_off1 i 1 + 1024 ≤ (y 1).val) :
    sout0_B_1 c i arg3 harg3 arg4 harg4 arg5 harg5 arg6 harg6 arg7 harg7 arg8 harg8 hc0 hc1 hc2 hc3 x0 x1 xs0 xs1 y = xs1 y := by
  unfold sout0_B_1
  unfold kernelRun0_B
  dsimp only
  refine (View.read_writes_cons_unit_of_not_mem _ _ (k0_off1_inb i) _ [] y rfl (1 : Fin 2) ha).trans ?_
  rw [View.writes_nil, harg8.read_unread]

/-- Case C (the end of a sweep), the row minima. -/
theorem sC0 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x3x1024 .f32) (x1 : Vec F S1x1024x3 .f32) (xs0 : Vec F S1x1024 .f32) (xs1 : Vec F S1x4096 .f32) :
    sout0_C_0 c i arg3 harg3 arg4 harg4 arg5 harg5 arg6 harg6 arg7 harg7 arg8 harg8 hc0 hc1 hc2 hc3 x0 x1 xs0 xs1 = k0_pay2 (k0_pay8 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_run_names
  rw [View.canon_cons_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case C, the column minima, inside the tile's stretch: the old entry against the tile's row minimum. -/
theorem sC1_hit (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x3x1024 .f32) (x1 : Vec F S1x1024x3 .f32) (xs0 : Vec F S1x1024 .f32) (xs1 : Vec F S1x4096 .f32)
    (y : S1x4096.Idx) (x : S1x1024.Idx) (hx : ∀ a, (y a).val = k0_off1 i a + (x a).val) :
    sout0_C_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x1024.size (k0_off1_inb i))) x := by
  unfold sout0_C_1
  unfold kernelRun0_C
  dsimp only
  sl_unfold_run_names
  refine (View.read_writes_cons_unit_of_mem _ _ (k0_off1_inb i) _ [] y x rfl hx).trans ?_
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case C, the column minima, outside the tile's stretch: untouched. -/
theorem sC1_miss (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x3x1024 .f32) (x1 : Vec F S1x1024x3 .f32) (xs0 : Vec F S1x1024 .f32) (xs1 : Vec F S1x4096 .f32)
    (y : S1x4096.Idx) (ha : (y 1).val < k0_off1 i 1 ∨ k0_off1 i 1 + 1024 ≤ (y 1).val) :
    sout0_C_1 c i arg3 harg3 arg4 harg4 arg5 harg5 arg6 harg6 arg7 harg7 arg8 harg8 hc0 hc1 hc2 hc3 x0 x1 xs0 xs1 y = xs1 y := by
  unfold sout0_C_1
  unfold kernelRun0_C
  dsimp only
  refine (View.read_writes_cons_unit_of_not_mem _ _ (k0_off1_inb i) _ [] y rfl (1 : Fin 2) ha).trans ?_
  rw [View.writes_nil, harg8.read_unread]

/-- Case C, the first output's block: the root of the clamped row minima just updated. -/
theorem oC2 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x3x1024 .f32) (x1 : Vec F S1x1024x3 .f32) (xs0 : Vec F S1x1024 .f32) (xs1 : Vec F S1x4096 .f32) :
    out0_C_2 c i arg3 harg3 arg4 harg4 arg5 harg5 arg6 harg6 arg7 harg7 arg8 harg8 hc0 hc1 hc2 hc3 x0 x1 xs0 xs1 = k0_pay5 (k0_pay2 (k0_pay8 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero hz3]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case D (the start of a later sweep), the row minima: reset, then the tile's column minima. -/
theorem sD0 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i)
    (x0 : Vec F S1x3x1024 .f32) (x1 : Vec F S1x1024x3 .f32) (xs1 : Vec F S1x4096 .f32) :
    sout0_D_0 c i arg3 harg3 arg4 harg4 arg5 harg5 arg6 harg6 arg7 harg7 arg8 harg8 hc0 hc1 hc2 hc3 x0 x1 xs1 = k0_pay2 (k0_pay8 x0 x1) (k0_pay1 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_run_names
  rw [View.canon_cons_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case D, the column minima, inside the tile's stretch: the old entry against the tile's row minimum. -/
theorem sD1_hit (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i)
    (x0 : Vec F S1x3x1024 .f32) (x1 : Vec F S1x1024x3 .f32) (xs1 : Vec F S1x4096 .f32)
    (y : S1x4096.Idx) (x : S1x1024.Idx) (hx : ∀ a, (y a).val = k0_off1 i a + (x a).val) :
    sout0_D_1 c i arg3 harg3 arg4 harg4 arg5 harg5 arg6 harg6 arg7 harg7 arg8 harg8 hc0 hc1 hc2 hc3 x0 x1 xs1 y
      = k0_pay4 (k0_pay9 x0 x1) (View.ld xs1 (Rect.unit (s := S1x4096) (k0_off1 i) S1x1024.size (k0_off1_inb i))) x := by
  unfold sout0_D_1
  unfold kernelRun0_D
  dsimp only
  sl_unfold_run_names
  refine (View.read_writes_cons_unit_of_mem _ _ (k0_off1_inb i) _ [] y x rfl hx).trans ?_
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case D, the column minima, outside the tile's stretch: untouched. -/
theorem sD1_miss (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i)
    (x0 : Vec F S1x3x1024 .f32) (x1 : Vec F S1x1024x3 .f32) (xs1 : Vec F S1x4096 .f32)
    (y : S1x4096.Idx) (ha : (y 1).val < k0_off1 i 1 ∨ k0_off1 i 1 + 1024 ≤ (y 1).val) :
    sout0_D_1 c i arg3 harg3 arg4 harg4 arg5 harg5 arg6 harg6 arg7 harg7 arg8 harg8 hc0 hc1 hc2 hc3 x0 x1 xs1 y = xs1 y := by
  unfold sout0_D_1
  unfold kernelRun0_D
  dsimp only
  refine (View.read_writes_cons_unit_of_not_mem _ _ (k0_off1_inb i) _ [] y rfl (1 : Fin 2) ha).trans ?_
  rw [View.writes_nil, harg8.read_unread]

/-- Case E (the last point of a batch entry), the row minima. -/
theorem sE0 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x3x1024 .f32) (x1 : Vec F S1x1024x3 .f32) (xs0 : Vec F S1x1024 .f32) (xs1 : Vec F S1x4096 .f32) :
    sout0_E_0 c i arg3 harg3 arg4 harg4 arg5 harg5 arg6 harg6 arg7 harg7 arg8 harg8 hc0 hc1 hc2 hc3 x0 x1 xs0 xs1 = k0_pay2 (k0_pay8 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_run_names
  rw [View.canon_cons_unit_zero hz2]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case E, the column minima, inside the tile's stretch: the old entry against the tile's row minimum. -/
theorem sE1_hit (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x3x1024 .f32) (x1 : Vec F S1x1024x3 .f32) (xs0 : Vec F S1x1024 .f32) (xs1 : Vec F S1x4096 .f32)
    (y : S1x4096.Idx) (x : S1x1024.Idx) (hx : ∀ a, (y a).val = k0_off1 i a + (x a).val) :
    sout0_E_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x1024.size (k0_off1_inb i))) x := by
  unfold sout0_E_1
  unfold kernelRun0_E
  dsimp only
  sl_unfold_run_names
  refine (View.read_writes_cons_unit_of_mem _ _ (k0_off1_inb i) _ [] y x rfl hx).trans ?_
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case E, the column minima, outside the tile's stretch: untouched. -/
theorem sE1_miss (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x3x1024 .f32) (x1 : Vec F S1x1024x3 .f32) (xs0 : Vec F S1x1024 .f32) (xs1 : Vec F S1x4096 .f32)
    (y : S1x4096.Idx) (ha : (y 1).val < k0_off1 i 1 ∨ k0_off1 i 1 + 1024 ≤ (y 1).val) :
    sout0_E_1 c i arg3 harg3 arg4 harg4 arg5 harg5 arg6 harg6 arg7 harg7 arg8 harg8 hc0 hc1 hc2 hc3 x0 x1 xs0 xs1 y = xs1 y := by
  unfold sout0_E_1
  unfold kernelRun0_E
  dsimp only
  refine (View.read_writes_cons_unit_of_not_mem _ _ (k0_off1_inb i) _ [] y rfl (1 : Fin 2) ha).trans ?_
  rw [View.writes_nil, harg8.read_unread]

/-- Case E, the first output's block: the root of the clamped row minima just updated. -/
theorem oE2 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x3x1024 .f32) (x1 : Vec F S1x1024x3 .f32) (xs0 : Vec F S1x1024 .f32) (xs1 : Vec F S1x4096 .f32) :
    out0_E_2 c i arg3 harg3 arg4 harg4 arg5 harg5 arg6 harg6 arg7 harg7 arg8 harg8 hc0 hc1 hc2 hc3 x0 x1 xs0 xs1 = k0_pay5 (k0_pay2 (k0_pay8 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz3]
  simp only [View.readAt_eq_ld, harg3.read_unread, harg4.read_unread, harg7.read_unread, harg8.read_unread, View.ld_unit_zero (S := S1x3x1024) hz3, View.ld_unit_zero (S := S1x1024x3) hz3, View.ld_unit_zero (S := S1x1024) hz2, View.ld_unit_zero (S := S1x4096) hz2, View.readCov_cons_toLoadRect]

/-- Case E, the second output's block: the root of the clamped column minima just updated. -/
theorem oE3 (c : Dev nD) (i : grid0.Coords) (arg3 : Memref sig .tc .vmem S1x3x1024 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1024 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x3x1024 .f32) (x1 : Vec F S1x1024x3 .f32) (xs0 : Vec F S1x1024 .f32) (xs1 : Vec F S1x4096 .f32) :
    out0_E_3 c i arg3 harg3 arg4 harg4 arg5 harg5 arg6 harg6 arg7 harg7 arg8 harg8 hc0 hc1 hc2 hc3 x0 x1 xs0 xs1 = k0_pay6 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  rw [View.canon_unit_zero hz3]
  sl_unfold_run_names
  simp only [View.readAt_eq_ld, View.ld_unit_zero (S := S1x4096) hz2]

end Cert.Chamfer.Pieces

end
-- ==== Proof.ChamferPayload.lean ====
/-
  The tile's arithmetic, read one entry at a time. A tile pairs 1024 points of the second cloud (rows, index p)
  with 1024 points of the first (columns, index q); its entry (p, q) is the squared distance of the pair, the three
  squared coordinate differences added to zero in turn. The column minima run over p, the row minima over q; each
  is carried by its universal property (a bound lies below the minimum exactly when it lies below every entry). The
  running minima are updated by a pointwise minimum, start from the top element, and are closed by a clamp at zero
  and one square root.
-/
import proofs.«140225_j17952963297894_2_alg».proof.Proof.Gen.KernelIdeal.Skeleton
import proofs.«140225_j17952963297894_2_alg».proof.Proof.ChamferSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Chamfer.Payload

open Cert.KernelIdeal Cert.KernelIdeal.Gen Idealize.ShloMosaic Idealize.ShloMosaic.ValueIdx Cert.Chamfer

/-! ## The words: the top element and zero -/

/-- The word of positive infinity is the top element. -/
theorem inf_word : Ideal.ofBits .f32 0x7F800000#32 = (⊤ : EReal) := by
  simp [Ideal.ofBits, Ideal.ieee]

/-- The zero word is zero. -/
theorem zero_word : Ideal.ofBits .f32 0x00000000#32 = (0 : EReal) := by
  simp [Ideal.ofBits, Ideal.ieee]

/-! ## The running minima: their start, their update, their close -/

theorem pay1_apply (y : S1x1024.Idx) : k0_pay1 (F := Ideal) y = (⊤ : EReal) := by
  unfold k0_pay1
  refine (congrFun (shapeCast_self _ _) y).trans ?_
  exact inf_word

theorem pay3_apply (y : S1x4096.Idx) : k0_pay3 (F := Ideal) y = (⊤ : EReal) := by
  unfold k0_pay3
  refine (congrFun (shapeCast_self _ _) y).trans ?_
  exact inf_word

theorem pay2_apply (v39 : FVec Ideal S1x1024 .f32) (v46 : Vec Ideal S1x1024 .f32) (y : S1x1024.Idx) :
    k0_pay2 v39 v46 y = min (v46 y) (v39 y) := by
  unfold k0_pay2
  exact congrFun (shapeCast_self _ _) y

theorem pay4_apply (v42 : FVec Ideal S1x1024 .f32) (v59 : Vec Ideal S1x1024 .f32) (y : S1x1024.Idx) :
    k0_pay4 v42 v59 y = min (v59 y) (v42 y) := by
  unfold k0_pay4
  exact congrFun (shapeCast_self _ _) y

theorem pay5_apply (v73 : Vec Ideal S1x1024 .f32) (q : Fin 1024) :
    k0_pay5 v73 (ix3 (0 : Fin 1) (0 : Fin 1) q) = Ideal.sqrt (max (v73 (ix2 (0 : Fin 1) q)) 0) := by
  unfold k0_pay5
  refine (shapeCast_ab_1ab_apply _ _ (0 : Fin 1) (0 : Fin 1) q).trans ?_
  show Ideal.sqrt (max (v73 (ix2 (0 : Fin 1) q)) (Ideal.ofBits .f32 0x00000000#32)) = _
  rw [zero_word]

theorem pay6_apply (v73 : Vec Ideal S1x4096 .f32) (mm : Fin 4096) :
    k0_pay6 v73 (ix3 (0 : Fin 1) (0 : Fin 1) mm) = Ideal.sqrt (max (v73 (ix2 (0 : Fin 1) mm)) 0) := by
  unfold k0_pay6
  refine (shapeCast_ab_1ab_apply _ _ (0 : Fin 1) (0 : Fin 1) mm).trans ?_
  show Ideal.sqrt (max (v73 (ix2 (0 : Fin 1) mm)) (Ideal.ofBits .f32 0x00000000#32)) = _
  rw [zero_word]

/-! ## Layout steps the tile meets, read at coordinates -/

section Layout
variable {α : Type}

/-- A column `[a, 1]` spread over `b` columns reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` stood up as a column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Coordinate `k` of the second block's points, as a column spread along the rows: at `(p, q)` it is
    coordinate `k` of point `p`. -/
private theorem col_apply (x1 : (⟨3, ![1, 1024, 3]⟩ : Shape).Idx → α) (o : Nat)
    (h1 : S1x1024x3.ShapeCasts S1024x3) (hsl : S1024x3.Slices ![0, o] S1024x1)
    (h2 : S1024x1.ShapeCasts S1024) (h3 : S1024.ShapeCasts S1024x1) (hb : S1024x1.Broadcasts S1024x1024)
    (k : Fin 3) (hk : k.val = o) (p q : Fin 1024) :
    broadcastTo S1024x1024
        (shapeCast S1024x1 (shapeCast S1024 (extractStridedSlice S1024x1 ![0, o] (shapeCast S1024x3 x1 h1) hsl) h2) h3)
        hb (ix2 p q)
      = x1 (ix3 (0 : Fin 1) p k) := by
  refine (broadcastTo_a1_ab_apply _ hb p q).trans ?_
  refine (congrFun (shapeCast_shapeCast _ h2 h3) (ix2 p (0 : Fin 1))).trans ?_
  refine (slice2_axis1_apply o _ hsl p (0 : Fin 1) k (by rw [hk]; rfl)).trans ?_
  exact shapeCast_1ab_ab_apply x1 h1 p k

/-- Coordinate `k` of the first block's points, as a row spread down the columns: at `(p, q)` it is
    coordinate `k` of point `q`. -/
private theorem row_apply (x0 : (⟨3, ![1, 3, 1024]⟩ : Shape).Idx → α) (o : Nat)
    (h1 : S1x3x1024.ShapeCasts S3x1024) (hsl : S3x1024.Slices ![o, 0] S1x1024)
    (h2 : S1x1024.ShapeCasts S1024) (h3 : S1024.ShapeCasts S1x1024) (hb : S1x1024.Broadcasts S1024x1024)
    (k : Fin 3) (hk : k.val = o) (p q : Fin 1024) :
    broadcastTo S1024x1024
        (shapeCast S1x1024 (shapeCast S1024 (extractStridedSlice S1x1024 ![o, 0] (shapeCast S3x1024 x0 h1) hsl) h2) h3)
        hb (ix2 p q)
      = x0 (ix3 (0 : Fin 1) k q) := by
  refine (broadcastTo_1b_ab_apply _ hb p q).trans ?_
  refine (congrFun (shapeCast_shapeCast _ h2 h3) (ix2 (0 : Fin 1) q)).trans ?_
  refine (slice2_axis0_apply o _ hsl (0 : Fin 1) q k (by rw [hk]; rfl)).trans ?_
  exact shapeCast_1ab_ab_apply x0 h1 k q

end Layout

/-! ## The tile of squared distances -/

/-- Three squared differences added to a start value in turn, read at an index. -/
private theorem tile_apply (z : Ideal .f32) (C0 R0 C1 R1 C2 R2 : FVec Ideal S1024x1024 .f32) (j : S1024x1024.Idx) :
    addf (addf (addf (broadcast S1024x1024 z) (mulf (subf C0 R0) (subf C0 R0))) (mulf (subf C1 R1) (subf C1 R1)))
        (mulf (subf C2 R2) (subf C2 R2)) j
      = ((z + sqr (C0 j - R0 j)) + sqr (C1 j - R1 j)) + sqr (C2 j - R2 j) := rfl

private theorem tile_congr {z a0 b0 a1 b1 a2 b2 z' a0' b0' a1' b1' a2' b2' : EReal} (hz : z = z')
    (ha0 : a0 = a0') (hb0 : b0 = b0') (ha1 : a1 = a1') (hb1 : b1 = b1') (ha2 : a2 = a2') (hb2 : b2 = b2') :
    ((z + sqr (a0 - b0)) + sqr (a1 - b1)) + sqr (a2 - b2)
      = ((z' + sqr (a0' - b0')) + sqr (a1' - b1')) + sqr (a2' - b2') := by
  subst hz ha0 hb0 ha1 hb1 ha2 hb2; rfl

/-- the tile of squared distances, in the body's order of additions -/
theorem pay7_apply (x0 : Vec Ideal S1x3x1024 .f32) (x1 : Vec Ideal S1x1024x3 .f32) (p q : Fin 1024) :
    k0_pay7 x0 x1 (ix2 p q)
      = ((0 + sqr (x1 (ix3 (0 : Fin 1) p (0 : Fin 3)) - x0 (ix3 (0 : Fin 1) (0 : Fin 3) q)))
            + sqr (x1 (ix3 (0 : Fin 1) p (1 : Fin 3)) - x0 (ix3 (0 : Fin 1) (1 : Fin 3) q)))
            + sqr (x1 (ix3 (0 : Fin 1) p (2 : Fin 3)) - x0 (ix3 (0 : Fin 1) (2 : Fin 3) q)) := by
  unfold k0_pay7
  refine (tile_apply _ _ _ _ _ _ _ (ix2 p q)).trans ?_
  exact tile_congr zero_word
    (col_apply x1 0 _ _ _ _ _ (0 : Fin 3) rfl p q) (row_apply x0 0 _ _ _ _ _ (0 : Fin 3) rfl p q)
    (col_apply x1 1 _ _ _ _ _ (1 : Fin 3) rfl p q) (row_apply x0 1 _ _ _ _ _ (1 : Fin 3) rfl p q)
    (col_apply x1 2 _ _ _ _ _ (2 : Fin 3) rfl p q) (row_apply x0 2 _ _ _ _ _ (2 : Fin 3) rfl p q)

/-! ## The tile's minima -/

/-- The reduced index `q` with row `k` put back is `(k, q)`. -/
private theorem lift0_ix2 (h : S1024x1024.Reduces [0] S1024) (q : Fin 1024) (k : Fin (S1024x1024.size 0)) :
    h.lift (ix1 q) k = ix2 (⟨k.val, k.isLt⟩ : Fin 1024) q := by
  funext c; apply Fin.ext
  fin_cases c <;> rfl

/-- The reduced index `p` with column `k` put back is `(p, k)`. -/
private theorem lift1_ix2 (h : S1024x1024.Reduces [1] S1024) (p : Fin 1024) (k : Fin (S1024x1024.size 1)) :
    h.lift (ix1 p) k = ix2 p (⟨k.val, k.isLt⟩ : Fin 1024) := by
  funext c; apply Fin.ext
  fin_cases c <;> rfl

/-- A bound lies below a minimum taken from the top element over a finite range exactly when it lies below
    every member. -/
private theorem le_foldMin_top_iff (f : Fin 1024 → EReal) (c : EReal) :
    c ≤ (Finset.univ : Finset (Fin 1024)).fold min (⊤ : EReal) f ↔ ∀ k : Fin 1024, c ≤ f k := by
  rw [Finset.le_fold_min]
  exact ⟨fun h k => h.2 k (Finset.mem_univ k), fun h => ⟨le_top, fun k _ => h k⟩⟩

/-- The minimum down the columns of a tile, by its universal property. -/
private theorem colMin_le_iff (src : FVec Ideal S1024x1024 .f32) (h : S1024x1024.Reduces [0] S1024)
    (hφ : FKind.Formats .f32) (hacc : (0x7F800000#32 : BitVec FTy.f32.bits) = FKind.minimumf.neutral .f32 hφ)
    (q : Fin 1024) (c : EReal) :
    c ≤ multiReduction .minimumf [0] S1024 src 0x7F800000#32 h hφ hacc (ix1 q) ↔ ∀ p : Fin 1024, c ≤ src (ix2 p q) := by
  have e : multiReduction .minimumf [0] S1024 src 0x7F800000#32 h hφ hacc (ix1 q)
      = (Finset.univ : Finset (Fin 1024)).fold min (⊤ : EReal) (fun p => src (ix2 p q)) := by
    refine (multiReduction_minimumf_eq_fold src _ h hφ hacc (ix1 q)).trans ?_
    refine (h.fold_filter_drop_single FloatOps.minimumf _ src (ix1 q)).trans ?_
    have hf : (src ∘ h.lift (ix1 q)) = fun p : Fin 1024 => src (ix2 p q) :=
      funext fun k => congrArg src (lift0_ix2 h q k)
    rw [hf]
    exact congrArg (fun b => (Finset.univ : Finset (Fin 1024)).fold min b (fun p => src (ix2 p q))) inf_word
  rw [e]
  exact le_foldMin_top_iff _ c

/-- The minimum along the rows of a tile, by its universal property. -/
private theorem rowMin_le_iff (src : FVec Ideal S1024x1024 .f32) (h : S1024x1024.Reduces [1] S1024)
    (hφ : FKind.Formats .f32) (hacc : (0x7F800000#32 : BitVec FTy.f32.bits) = FKind.minimumf.neutral .f32 hφ)
    (p : Fin 1024) (c : EReal) :
    c ≤ multiReduction .minimumf [1] S1024 src 0x7F800000#32 h hφ hacc (ix1 p) ↔ ∀ q : Fin 1024, c ≤ src (ix2 p q) := by
  have e : multiReduction .minimumf [1] S1024 src 0x7F800000#32 h hφ hacc (ix1 p)
      = (Finset.univ : Finset (Fin 1024)).fold min (⊤ : EReal) (fun q => src (ix2 p q)) := by
    refine (multiReduction_minimumf_eq_fold src _ h hφ hacc (ix1 p)).trans ?_
    refine (h.fold_filter_drop_single FloatOps.minimumf _ src (ix1 p)).trans ?_
    have hf : (src ∘ h.lift (ix1 p)) = fun q : Fin 1024 => src (ix2 p q) :=
      funext fun k => congrArg src (lift1_ix2 h p k)
    rw [hf]
    exact congrArg (fun b => (Finset.univ : Finset (Fin 1024)).fold min b (fun q => src (ix2 p q))) inf_word
  rw [e]
  exact le_foldMin_top_iff _ c

/-- the tile's column minima (over p), by their universal property -/
theorem pay8_le_iff (x0 : Vec Ideal S1x3x1024 .f32) (x1 : Vec Ideal S1x1024x3 .f32) (q : Fin 1024) (c : EReal) :
    c ≤ k0_pay8 x0 x1 (ix2 (0 : Fin 1) q) ↔ ∀ p : Fin 1024, c ≤ k0_pay7 x0 x1 (ix2 p q) := by
  have e : k0_pay8 x0 x1 (ix2 (0 : Fin 1) q)
      = multiReduction .minimumf [0] S1024 (k0_pay7 x0 x1) 0x7F800000#32 reduces_S1024x1024_S1024 (.inl rfl) rfl
          (ix1 q) := by
    unfold k0_pay8
    exact shapeCast_a_1a_apply _ _ (0 : Fin 1) q
  rw [e]
  exact colMin_le_iff (k0_pay7 x0 x1) _ _ _ q c

/-- the tile's row minima (over q), transposed to a row -/
theorem pay9_le_iff (x0 : Vec Ideal S1x3x1024 .f32) (x1 : Vec Ideal S1x1024x3 .f32) (p : Fin 1024) (c : EReal) :
    c ≤ k0_pay9 x0 x1 (ix2 (0 : Fin 1) p) ↔ ∀ q : Fin 1024, c ≤ k0_pay7 x0 x1 (ix2 p q) := by
  have e : k0_pay9 x0 x1 (ix2 (0 : Fin 1) p)
      = multiReduction .minimumf [1] S1024 (k0_pay7 x0 x1) 0x7F800000#32 reduces_S1024x1024_S1024_2 (.inl rfl) rfl
          (ix1 p) := by
    unfold k0_pay9
    refine (transpose_ix2_apply _ _ (0 : Fin 1) p).trans ?_
    exact shapeCast_a_a1_apply _ _ p (0 : Fin 1)
  rw [e]
  exact rowMin_le_iff (k0_pay7 x0 x1) _ _ _ p c

end Cert.Chamfer.Payload

end
-- ==== Proof.ChamferInvariant.lean ====
/-
  What the two carried running minima hold after every grid point, and hence what the two outputs' blocks hold at
  the points that write them back.

  Write D b n m for the squared distance between point n of cloud one and point m of cloud two in batch entry b.
  A minimum is carried by what lies below it. After point t = (b, i, j):
    the row buffer's entry q lies above e exactly when e ≤ D b (1024·i + q) m for every m < 1024·(j + 1);
    the column buffer's entry m lies above e exactly when e ≤ D b n m for every n < 1024·i, and also for every
    n < 1024·(i + 1) if m < 1024·(j + 1).
  Both hold at the first point of a batch entry (each buffer is reset to +inf there and meets one tile) and pass from
  a point to the next: a tile contributes, to row entry q, its column minimum over the tile's 1024 points of cloud
  two, and to column entry 1024·j + r its row minimum over the tile's 1024 points of cloud one. At j = 3 the row
  condition ranges over all of cloud two, at i = j = 3 the column condition over all of cloud one: the blocks then
  written back are the roots of the clamped infima, which are the minima of the roots.
-/
import proofs.«140225_j17952963297894_2_alg».proof.Proof.ChamferBlocks
import proofs.«140225_j17952963297894_2_alg».proof.Proof.ChamferPieces
import proofs.«140225_j17952963297894_2_alg».proof.Proof.ChamferPayload

noncomputable section

open Idealize.ShloMosaic Idealize.ShloMosaic.TcCoe Idealize.SL.Sem Idealize.ShloMosaic.ValueIdx
open Idealize.ShloMosaic.Pipeline (Dat)

namespace Cert.Chamfer.Inv

open Cert.KernelIdeal Cert.KernelIdeal.Gen Cert.Chamfer Cert.Chamfer.Blocks Cert.Chamfer.Pieces Cert.Chamfer.Payload

variable (m : (ℓ : Loc nD τ sig) → Buf (Elt Ideal) ℓ)

/-- Cloud one and cloud two as the program is launched with them. -/
abbrev cA (c : Dev nD) : (⟨3, ![4, 4096, 3]⟩ : Shape).Idx → EReal := m ((c : Thread nD τ).loc main_arg0)
abbrev cB (c : Dev nD) : (⟨3, ![4, 4096, 3]⟩ : Shape).Idx → EReal := m ((c : Thread nD τ).loc main_arg1)

/-- The tile of squared distances the body forms at point t: entry (p, q) is D b (1024·i + q) (1024·j + p). -/
theorem tile_eq (c : Dev nD) (t : Fin cfg0.N) (p q : Fin 1024) :
    k0_pay7 (iblk m c 0 t : Vec Ideal S1x3x1024 .f32) (iblk m c 1 t : Vec Ideal S1x1024x3 .f32) (ix2 p q)
      = sqDist (cA m c) (cB m c) (pb t) (tileIx (pi t) q) (tileIx (pj t) p) := by
  rw [pay7_apply, blk0_at, blk0_at, blk0_at, blk1_at, blk1_at, blk1_at]
  unfold sqDist
  rw [Fin.sum_univ_three, sqr_sub_comm (cA m c _) (cB m c _), sqr_sub_comm (cA m c _) (cB m c _),
    sqr_sub_comm (cA m c _) (cB m c _), zero_add]

/-- Where the body's stretch of the column buffer starts at point t: decided once over the grid. -/
theorem off1_eq : ∀ t : Fin cfg0.N, k0_off1 (grid0.coords t) (0 : Fin 2) = 0
    ∧ k0_off1 (grid0.coords t) (1 : Fin 2) = t.val % 4 * 1024 :=
  (by decide +kernel : ∀ t : Fin grid0.N, k0_off1 (grid0.coords t) (0 : Fin 2) = 0
    ∧ k0_off1 (grid0.coords t) (1 : Fin 2) = t.val % 4 * 1024)

/-- An index of cloud two inside tile j is a point of the tile. -/
theorem exists_tile (j : Fin 4) (mm : Fin 4096) (h1 : j.val * 1024 ≤ mm.val) (h2 : mm.val < (j.val + 1) * 1024) :
    ∃ p : Fin 1024, mm = tileIx j p :=
  ⟨⟨mm.val - j.val * 1024, by omega⟩, Fin.ext (by show mm.val = j.val * 1024 + (mm.val - j.val * 1024); omega)⟩

/-- The row buffer after point t. -/
def RowOK (c : Dev nD) (t : Fin cfg0.N) (s : Vec Ideal S1x1024 .f32) : Prop :=
  ∀ (q : Fin 1024) (e : EReal), e ≤ s (ix2 (0 : Fin 1) q) ↔
    ∀ mm : Fin 4096, mm.val < (t.val % 4 + 1) * 1024 → e ≤ sqDist (cA m c) (cB m c) (pb t) (tileIx (pi t) q) mm

/-- The column buffer after point t. -/
def ColOK (c : Dev nD) (t : Fin cfg0.N) (s : Vec Ideal S1x4096 .f32) : Prop :=
  ∀ (mm : Fin 4096) (e : EReal), e ≤ s (ix2 (0 : Fin 1) mm) ↔
    ∀ n : Fin 4096, (n.val < t.val / 4 % 4 * 1024 ∨ (n.val < (t.val / 4 % 4 + 1) * 1024 ∧ mm.val < (t.val % 4 + 1) * 1024)) →
      e ≤ sqDist (cA m c) (cB m c) (pb t) n mm

/-- What the tile contributes to row entry q: the bound below every D b (1024·i + q) m with m in tile j. -/
theorem tile_rows (c : Dev nD) (t : Fin cfg0.N) (q : Fin 1024) (e : EReal) :
    e ≤ k0_pay8 (iblk m c 0 t : Vec Ideal S1x3x1024 .f32) (iblk m c 1 t : Vec Ideal S1x1024x3 .f32) (ix2 (0 : Fin 1) q) ↔
      ∀ mm : Fin 4096, t.val % 4 * 1024 ≤ mm.val → mm.val < (t.val % 4 + 1) * 1024 →
        e ≤ sqDist (cA m c) (cB m c) (pb t) (tileIx (pi t) q) mm := by
  rw [pay8_le_iff]
  constructor
  · intro h mm h1 h2
    obtain ⟨p, rfl⟩ := exists_tile (pj t) mm h1 h2
    rw [← tile_eq]; exact h p
  · intro h p
    rw [tile_eq]
    exact h _ (by show t.val % 4 * 1024 ≤ t.val % 4 * 1024 + p.val; omega)
      (by show t.val % 4 * 1024 + p.val < (t.val % 4 + 1) * 1024; have := p.isLt; omega)

/-- What the tile contributes to column entry 1024·j + r: the bound below every D b n (1024·j + r) with n in tile i. -/
theorem tile_cols (c : Dev nD) (t : Fin cfg0.N) (r : Fin 1024) (e : EReal) :
    e ≤ k0_pay9 (iblk m c 0 t : Vec Ideal S1x3x1024 .f32) (iblk m c 1 t : Vec Ideal S1x1024x3 .f32) (ix2 (0 : Fin 1) r) ↔
      ∀ n : Fin 4096, t.val / 4 % 4 * 1024 ≤ n.val → n.val < (t.val / 4 % 4 + 1) * 1024 →
        e ≤ sqDist (cA m c) (cB m c) (pb t) n (tileIx (pj t) r) := by
  rw [pay9_le_iff]
  constructor
  · intro h n h1 h2
    obtain ⟨q, rfl⟩ := exists_tile (pi t) n h1 h2
    rw [← tile_eq]; exact h q
  · intro h q
    rw [tile_eq]
    exact h _ (by show t.val / 4 % 4 * 1024 ≤ t.val / 4 % 4 * 1024 + q.val; omega)
      (by show t.val / 4 % 4 * 1024 + q.val < (t.val / 4 % 4 + 1) * 1024; have := q.isLt; omega)

/-- A sweep's first tile (j = 0): the row buffer, reset and met with the tile. -/
theorem row_reset (c : Dev nD) (t : Fin cfg0.N) (h4 : t.val % 4 = 0) (s : Vec Ideal S1x1024 .f32)
    (hs : s = k0_pay2 (k0_pay8 (iblk m c 0 t : Vec Ideal S1x3x1024 .f32) (iblk m c 1 t : Vec Ideal S1x1024x3 .f32)) (k0_pay1 (F := Ideal))) :
    RowOK m c t s := by
  intro q e
  rw [hs, pay2_apply, pay1_apply, le_min_iff, tile_rows]
  constructor
  · rintro ⟨-, h⟩ mm hmm
    exact h mm (by omega) hmm
  · intro h
    exact ⟨le_top, fun mm _ h2 => h mm h2⟩

/-- A later tile of a sweep (j > 0): the row buffer of the point before, met with the tile. -/
theorem row_acc (c : Dev nD) (t tp : Fin cfg0.N) (htp : tp.val + 1 = t.val) (h4 : t.val % 4 ≠ 0)
    (xs0 s : Vec Ideal S1x1024 .f32) (hprev : RowOK m c tp xs0)
    (hs : s = k0_pay2 (k0_pay8 (iblk m c 0 t : Vec Ideal S1x3x1024 .f32) (iblk m c 1 t : Vec Ideal S1x1024x3 .f32)) xs0) :
    RowOK m c t s := by
  have hb : pb tp = pb t := Fin.ext (by show tp.val / 16 = t.val / 16; omega)
  have hi : pi tp = pi t := Fin.ext (by show tp.val / 4 % 4 = t.val / 4 % 4; omega)
  have hj : tp.val % 4 + 1 = t.val % 4 := by omega
  intro q e
  rw [hs, pay2_apply, le_min_iff, hprev q e, tile_rows, hb, hi]
  constructor
  · rintro ⟨h1, h2⟩ mm hmm
    by_cases hlt : mm.val < t.val % 4 * 1024
    · exact h1 mm (by omega)
    · exact h2 mm (by omega) hmm
  · intro h
    exact ⟨fun mm hmm => h mm (by omega), fun mm _ h2 => h mm h2⟩

/-- The first point of a batch entry (i = j = 0): the column buffer, reset and met with the tile on its stretch. -/
theorem col_reset (c : Dev nD) (t : Fin cfg0.N) (h16 : t.val % 16 = 0) (s : Vec Ideal S1x4096 .f32)
    (hhit : ∀ (y : S1x4096.Idx) (x : S1x1024.Idx), (∀ a, (y a).val = k0_off1 (grid0.coords t) a + (x a).val) →
      s y = k0_pay4 (k0_pay9 (iblk m c 0 t : Vec Ideal S1x3x1024 .f32) (iblk m c 1 t : Vec Ideal S1x1024x3 .f32))
        (View.ld (k0_pay3 (F := Ideal)) (Rect.unit (s := S1x4096) (k0_off1 (grid0.coords t)) S1x1024.size (Facts₀.k0_off1_inb (grid0.coords t)))) x)
    (hmiss : ∀ y : S1x4096.Idx, ((y 1).val < k0_off1 (grid0.coords t) 1 ∨ k0_off1 (grid0.coords t) 1 + 1024 ≤ (y 1).val) →
      s y = k0_pay3 (F := Ideal) y) :
    ColOK m c t s := by
  have ho := off1_eq t
  have hi0 : t.val / 4 % 4 = 0 := by omega
  have hj0 : t.val % 4 = 0 := by omega
  intro mm e
  by_cases hm : mm.val < 1024
  · have hy := hhit (ix2 (0 : Fin 1) mm) (ix2 (0 : Fin 1) (⟨mm.val, hm⟩ : Fin 1024)) (fun a => by
      match a with
      | ⟨0, _⟩ => show (0 : ℕ) = k0_off1 (grid0.coords t) 0 + 0; rw [ho.1]
      | ⟨1, _⟩ => show mm.val = k0_off1 (grid0.coords t) 1 + mm.val; rw [ho.2]; omega)
    rw [hy, pay4_apply, le_min_iff, tile_cols]
    have hmm : tileIx (pj t) (⟨mm.val, hm⟩ : Fin 1024) = mm :=
      Fin.ext (by show t.val % 4 * 1024 + mm.val = mm.val; omega)
    rw [hmm]
    constructor
    · rintro ⟨-, h⟩ n hn
      exact h n (by omega) (by omega)
    · intro h
      refine ⟨?_, fun n _ h2 => h n (Or.inr ⟨h2, by omega⟩)⟩
      show e ≤ k0_pay3 (F := Ideal) _
      rw [pay3_apply]; exact le_top
  · have hy := hmiss (ix2 (0 : Fin 1) mm) (Or.inr (by show k0_off1 (grid0.coords t) 1 + 1024 ≤ mm.val; rw [ho.2]; omega))
    rw [hy, pay3_apply]
    constructor
    · intro _ n hn
      exfalso; omega
    · intro _; exact le_top

/-- Any later point: the column buffer of the point before, met with the tile on its stretch. -/
theorem col_acc (c : Dev nD) (t tp : Fin cfg0.N) (htp : tp.val + 1 = t.val) (h16 : t.val % 16 ≠ 0)
    (xs1 s : Vec Ideal S1x4096 .f32) (hprev : ColOK m c tp xs1)
    (hhit : ∀ (y : S1x4096.Idx) (x : S1x1024.Idx), (∀ a, (y a).val = k0_off1 (grid0.coords t) a + (x a).val) →
      s y = k0_pay4 (k0_pay9 (iblk m c 0 t : Vec Ideal S1x3x1024 .f32) (iblk m c 1 t : Vec Ideal S1x1024x3 .f32))
        (View.ld xs1 (Rect.unit (s := S1x4096) (k0_off1 (grid0.coords t)) S1x1024.size (Facts₀.k0_off1_inb (grid0.coords t)))) x)
    (hmiss : ∀ y : S1x4096.Idx, ((y 1).val < k0_off1 (grid0.coords t) 1 ∨ k0_off1 (grid0.coords t) 1 + 1024 ≤ (y 1).val) →
      s y = xs1 y) :
    ColOK m c t s := by
  have ho := off1_eq t
  have hb : pb tp = pb t := Fin.ext (by show tp.val / 16 = t.val / 16; omega)
  intro mm e
  have hmm4 : mm.val < 4096 := mm.isLt
  by_cases hm : t.val % 4 * 1024 ≤ mm.val ∧ mm.val < (t.val % 4 + 1) * 1024
  · have hlt : mm.val - t.val % 4 * 1024 < 1024 := by omega
    have hy := hhit (ix2 (0 : Fin 1) mm) (ix2 (0 : Fin 1) (⟨mm.val - t.val % 4 * 1024, hlt⟩ : Fin 1024)) (fun a => by
      match a with
      | ⟨0, _⟩ => show (0 : ℕ) = k0_off1 (grid0.coords t) 0 + 0; rw [ho.1]
      | ⟨1, _⟩ => show mm.val = k0_off1 (grid0.coords t) 1 + (mm.val - t.val % 4 * 1024); rw [ho.2]; omega)
    have hemb : (Rect.unit (s := S1x4096) (k0_off1 (grid0.coords t)) S1x1024.size (Facts₀.k0_off1_inb (grid0.coords t))).idx
        (ix2 (0 : Fin 1) (⟨mm.val - t.val % 4 * 1024, hlt⟩ : Fin 1024)) = ix2 (0 : Fin 1) mm := by
      funext a
      apply Fin.ext
      match a with
      | ⟨0, _⟩ => show k0_off1 (grid0.coords t) 0 + 1 * 0 = 0; rw [ho.1]
      | ⟨1, _⟩ => show k0_off1 (grid0.coords t) 1 + 1 * (mm.val - t.val % 4 * 1024) = mm.val; rw [ho.2]; omega
    have hmm : tileIx (pj t) (⟨mm.val - t.val % 4 * 1024, hlt⟩ : Fin 1024) = mm :=
      Fin.ext (by show t.val % 4 * 1024 + (mm.val - t.val % 4 * 1024) = mm.val; omega)
    rw [hy, pay4_apply, le_min_iff, tile_cols, hmm]
    show (e ≤ xs1 ((Rect.unit (s := S1x4096) (k0_off1 (grid0.coords t)) S1x1024.size (Facts₀.k0_off1_inb (grid0.coords t))).idx _) ∧ _) ↔ _
    rw [hemb, hprev mm e, hb]
    constructor
    · rintro ⟨h1, h2⟩ n hn
      by_cases hlo : n.val < t.val / 4 % 4 * 1024
      · exact h1 n (by omega)
      · exact h2 n (by omega) (by omega)
    · intro h
      exact ⟨fun n hn => h n (by omega), fun n h1 h2 => h n (Or.inr ⟨h2, hm.2⟩)⟩
  · have hy := hmiss (ix2 (0 : Fin 1) mm) (by
      show mm.val < k0_off1 (grid0.coords t) 1 ∨ k0_off1 (grid0.coords t) 1 + 1024 ≤ mm.val
      rw [ho.2]; omega)
    rw [hy, hprev mm e, hb]
    constructor
    · intro h n hn
      exact h n (by omega)
    · intro h n hn
      exact h n (by omega)

theorem lt1 (t : Fin cfg0.N) : t.val - 1 < cfg0.N := Nat.lt_of_le_of_lt (Nat.sub_le _ _) t.isLt

set_option maxHeartbeats 4000000 in
/-- One step: the two conditions pass from a point to the next, whichever of the body's five control cases the
    point is in (the case decides only which buffer is reset first and which output is written). -/
theorem step (c : Dev nD) (t : Fin cfg0.N)
    (ih : 0 < t.val → RowOK m c ⟨t.val - 1, lt1 t⟩ (outsAt0 m c (t.val - 1) (lt1 t)).2.2.1 ∧ ColOK m c ⟨t.val - 1, lt1 t⟩ (outsAt0 m c (t.val - 1) (lt1 t)).2.2.2) :
    RowOK m c t (outsAt0 m c t.val t.isLt).2.2.1 ∧ ColOK m c t (outsAt0 m c t.val t.isLt).2.2.2 := by
  have hN : t.val < 64 := lt_of_lt_of_eq t.isLt N64
  by_cases h0 : t.val % 4 = 0
  · by_cases h1 : t.val % 16 = 0
    · have h2 : ¬t.val % 4 = 3 := by omega
      have h3 : ¬t.val % 16 = 15 := by omega
      rw [outsAt0_A m c t h0 h1 h2 h3]
      dsimp only
      exact ⟨row_reset m c t h0 _ (sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)),
        col_reset m c t h1 _
          (fun y x hx => sA1_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) y x hx)
          (fun y ha => sA1_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) y ha)⟩
    · have h2 : ¬t.val % 4 = 3 := by omega
      have h3 : ¬t.val % 16 = 15 := by omega
      rw [outsAt0_D m c t h0 h1 h2 h3]
      dsimp only
      exact ⟨row_reset m c t h0 _ (sD0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (lt1 t)).2.2.2),
        col_acc m c t ⟨t.val - 1, lt1 t⟩ (by show t.val - 1 + 1 = t.val; omega) h1 (outsAt0 m c (t.val - 1) (lt1 t)).2.2.2 _ (ih (by omega)).2
          (fun y x hx => sD1_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (lt1 t)).2.2.2 y x hx)
          (fun y ha => sD1_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (lt1 t)).2.2.2 y ha)⟩
  · have h1 : ¬t.val % 16 = 0 := by omega
    by_cases h2 : t.val % 4 = 3
    · by_cases h3 : t.val % 16 = 15
      · rw [outsAt0_E m c t h0 h1 h2 h3]
        dsimp only
        exact ⟨row_acc m c t ⟨t.val - 1, lt1 t⟩ (by show t.val - 1 + 1 = t.val; omega) h0 (outsAt0 m c (t.val - 1) (lt1 t)).2.2.1 _ (ih (by omega)).1 (sE0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2),
          col_acc m c t ⟨t.val - 1, lt1 t⟩ (by show t.val - 1 + 1 = t.val; omega) h1 (outsAt0 m c (t.val - 1) (lt1 t)).2.2.2 _ (ih (by omega)).2
            (fun y x hx => sE1_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2 y x hx)
            (fun y ha => sE1_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2 y ha)⟩
      · rw [outsAt0_C m c t h0 h1 h2 h3]
        dsimp only
        exact ⟨row_acc m c t ⟨t.val - 1, lt1 t⟩ (by show t.val - 1 + 1 = t.val; omega) h0 (outsAt0 m c (t.val - 1) (lt1 t)).2.2.1 _ (ih (by omega)).1 (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (lt1 t)).2.2.1 (outsAt0 m c (t.val - 1) (lt1 t)).2.2.2),
          col_acc m c t ⟨t.val - 1, lt1 t⟩ (by show t.val - 1 + 1 = t.val; omega) h1 (outsAt0 m c (t.val - 1) (lt1 t)).2.2.2 _ (ih (by omega)).2
            (fun y x hx => sC1_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (lt1 t)).2.2.1 (outsAt0 m c (t.val - 1) (lt1 t)).2.2.2 y x hx)
            (fun y ha => sC1_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (lt1 t)).2.2.1 (outsAt0 m c (t.val - 1) (lt1 t)).2.2.2 y ha)⟩
    · have h3 : ¬t.val % 16 = 15 := by omega
      rw [outsAt0_B m c t h0 h1 h2 h3]
      dsimp only
      exact ⟨row_acc m c t ⟨t.val - 1, lt1 t⟩ (by show t.val - 1 + 1 = t.val; omega) h0 (outsAt0 m c (t.val - 1) (lt1 t)).2.2.1 _ (ih (by omega)).1 (sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (lt1 t)).2.2.1 (outsAt0 m c (t.val - 1) (lt1 t)).2.2.2),
        col_acc m c t ⟨t.val - 1, lt1 t⟩ (by show t.val - 1 + 1 = t.val; omega) h1 (outsAt0 m c (t.val - 1) (lt1 t)).2.2.2 _ (ih (by omega)).2
          (fun y x hx => sB1_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (lt1 t)).2.2.1 (outsAt0 m c (t.val - 1) (lt1 t)).2.2.2 y x hx)
          (fun y ha => sB1_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (lt1 t)).2.2.1 (outsAt0 m c (t.val - 1) (lt1 t)).2.2.2 y ha)⟩

/-- Both conditions hold after every point: by induction on the point. -/
theorem inv (c : Dev nD) : ∀ (n : ℕ) (h : n < cfg0.N),
    RowOK m c ⟨n, h⟩ (outsAt0 m c n h).2.2.1 ∧ ColOK m c ⟨n, h⟩ (outsAt0 m c n h).2.2.2
  | 0, h => step m c ⟨0, h⟩ (fun hpos => absurd hpos (lt_irrefl 0))
  | n + 1, h => step m c ⟨n + 1, h⟩ (fun _ => inv c n (Nat.lt_of_succ_lt h))

set_option maxHeartbeats 2000000 in
/-- At a point that ends a sweep over the second cloud's tiles (j = 3) the first output's block holds, at entry q,
    the nearest distance from point 1024·i + q of cloud one to cloud two. -/
theorem rows_at (c : Dev nD) (t : Fin cfg0.N) (h2 : t.val % 4 = 3) (q : Fin 1024) :
    ((outsAt0 m c t.val t.isLt).1 : Vec Ideal S1x1x1024 .f32) (ix3 (0 : Fin 1) (0 : Fin 1) q)
      = Cert.Chamfer.rowMin (m ((c : Thread nD τ).loc main_arg0)) (m ((c : Thread nD τ).loc main_arg1))
          (ix2 (pb t) (tileIx (pi t) q)) := by
  have hN : t.val < 64 := lt_of_lt_of_eq t.isLt N64
  have h0 : ¬t.val % 4 = 0 := by omega
  have h1 : ¬t.val % 16 = 0 := by omega
  have hinv : RowOK m c t (outsAt0 m c t.val t.isLt).2.2.1 := (inv m c t.val t.isLt).1
  have key : (outsAt0 m c t.val t.isLt).1 = k0_pay5 ((outsAt0 m c t.val t.isLt).2.2.1) := by
    by_cases h3 : t.val % 16 = 15
    · rw [outsAt0_E m c t h0 h1 h2 h3]
      dsimp only
      exact (oE2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2).trans
        (congrArg k0_pay5 (sE0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2).symm)
    · rw [outsAt0_C m c t h0 h1 h2 h3]
      dsimp only
      exact (oC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (lt1 t)).2.2.1 (outsAt0 m c (t.val - 1) (lt1 t)).2.2.2).trans
        (congrArg k0_pay5 (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (lt1 t)).2.2.1 (outsAt0 m c (t.val - 1) (lt1 t)).2.2.2).symm)
  rw [key, pay5_apply, rowMin_apply]
  haveI : Nonempty (Fin 4096) := ⟨⟨0, by decide⟩⟩
  exact sqrt_clamp_inf (fun mm : Fin 4096 => sqDist (cA m c) (cB m c) (pb t) (tileIx (pi t) q) mm)
    (fun mm => sqDist_nonneg _ _ _ _ _) _
    (fun e => (hinv q e).trans ⟨fun h mm => h mm (by have := mm.isLt; show mm.val < (t.val % 4 + 1) * 1024; omega), fun h mm _ => h mm⟩)

set_option maxHeartbeats 2000000 in
/-- At the last point of a batch entry (i = j = 3) the second output's block holds, at entry mm, the nearest distance
    from point mm of cloud two to cloud one. -/
theorem cols_at (c : Dev nD) (t : Fin cfg0.N) (h3 : t.val % 16 = 15) (mm : Fin 4096) :
    ((outsAt0 m c t.val t.isLt).2.1 : Vec Ideal S1x1x4096 .f32) (ix3 (0 : Fin 1) (0 : Fin 1) mm)
      = Cert.Chamfer.colMin (m ((c : Thread nD τ).loc main_arg0)) (m ((c : Thread nD τ).loc main_arg1))
          (ix2 (pb t) mm) := by
  have hN : t.val < 64 := lt_of_lt_of_eq t.isLt N64
  have h0 : ¬t.val % 4 = 0 := by omega
  have h1 : ¬t.val % 16 = 0 := by omega
  have h2 : t.val % 4 = 3 := by omega
  have hinv : ColOK m c t (outsAt0 m c t.val t.isLt).2.2.2 := (inv m c t.val t.isLt).2
  have key : (outsAt0 m c t.val t.isLt).2.1 = k0_pay6 ((outsAt0 m c t.val t.isLt).2.2.2) := by
    rw [outsAt0_E m c t h0 h1 h2 h3]
    dsimp only
    exact oE3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (lt1 t)).2.2.1 (outsAt0 m c (t.val - 1) (lt1 t)).2.2.2
  rw [key, pay6_apply, colMin_apply]
  haveI : Nonempty (Fin 4096) := ⟨⟨0, by decide⟩⟩
  exact sqrt_clamp_inf (fun n : Fin 4096 => sqDist (cA m c) (cB m c) (pb t) n mm)
    (fun n => sqDist_nonneg _ _ _ _ _) _
    (fun e => (hinv mm e).trans ⟨fun h n => h n (by have := n.isLt; have := mm.isLt; omega), fun h n _ => h n⟩)

end Cert.Chamfer.Inv

end
-- ==== Proof.ChamferValue.lean ====
/-
  The kernel's result, read off its run. Each of the two outputs is written back block by block: the first at the
  points that end a sweep over the second cloud's tiles, the second at the last point of each batch entry. What those
  blocks hold is known; here the blocks are put together into the two whole arrays of nearest distances, and the
  operations that follow the grid (two row sums, their mean over the points and over the batch) are applied to them.
-/
import proofs.«140225_j17952963297894_2_alg».proof.Proof.ChamferInvariant
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Chamfer.KValue

open Cert.KernelIdeal Cert.KernelIdeal.Gen Cert.Chamfer Cert.Chamfer.Blocks

variable (m : (ℓ : Loc nD τ sig) → Buf (Elt Ideal) ℓ) (ρ : Dev nD → PrngReg)

/-- The first output array, whole: entry (b, 0, n) is the nearest distance from point n of cloud one to cloud two. -/
def G2 (c : Dev nD) : Buf (Elt Ideal) ((c : Thread nD τ).loc main_v1_0) :=
  fun y => rowMin (m ((c : Thread nD τ).loc main_arg0)) (m ((c : Thread nD τ).loc main_arg1))
    (ix2 ⟨(y 0).val, (y 0).isLt⟩ ⟨(y 2).val, (y 2).isLt⟩)

/-- The second output array, whole: entry (b, 0, k) is the nearest distance from point k of cloud two to cloud one. -/
def G3 (c : Dev nD) : Buf (Elt Ideal) ((c : Thread nD τ).loc main_v1_1) :=
  fun y => colMin (m ((c : Thread nD τ).loc main_arg0)) (m ((c : Thread nD τ).loc main_arg1))
    (ix2 ⟨(y 0).val, (y 0).isLt⟩ ⟨(y 2).val, (y 2).isLt⟩)

/-- Where the first output's block sits at point t: batch entry t / 16, row 0, tile t / 4 % 4. -/
theorem idx2 : ∀ t : Fin cfg0.N, win0_2.index t (0 : Fin 3) = t.val / 16 ∧ win0_2.index t (1 : Fin 3) = 0
    ∧ win0_2.index t (2 : Fin 3) = t.val / 4 % 4 :=
  (by decide +kernel : ∀ t : Fin grid0.N, win0_2.index t (0 : Fin 3) = t.val / 16 ∧ win0_2.index t (1 : Fin 3) = 0
    ∧ win0_2.index t (2 : Fin 3) = t.val / 4 % 4)

/-- Where the second output's block sits at point t: batch entry t / 16, row 0, the whole row. -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- What a point that ends a sweep writes back into the first output is its block of the whole array. -/
theorem flushed_eq2 (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  obtain ⟨e0, e1, e2⟩ := idx2 t
  show (cfg0.win 2).cut (grid0.coords t) ((dats m 0 c).after 2 t) = _
  rw [after0_2]
  funext y
  rw [View.read_apply]
  have hy0 : (y 0).val < 1 := (y 0).isLt
  have hy1 : (y 1).val < 1 := (y 1).isLt
  have hy2 : (y 2).val < 1024 := (y 2).isLt
  show (outsAt0 m c t.val t.isLt).1 ((cfg0.win 2).xinj (grid0.coords t) y) = G2 m c (((cfg0.win 2).blk t).view.emb y)
  have hx : (cfg0.win 2).xinj (grid0.coords t) y = ix3 (0 : Fin 1) (0 : Fin 1) (⟨(y 2).val, hy2⟩ : Fin 1024) := by
    funext a
    apply Fin.ext
    match a with
    | ⟨0, _⟩ => show (y 0).val = 0; omega
    | ⟨1, _⟩ => show (y 1).val = 0; omega
    | ⟨2, _⟩ => rfl
  refine (congrArg (outsAt0 m c t.val t.isLt).1 hx).trans ?_
  refine (Inv.rows_at m c t h3 ⟨(y 2).val, hy2⟩).trans ?_
  unfold G2
  refine congrArg (rowMin _ _) ?_
  funext a
  apply Fin.ext
  match a with
  | ⟨0, _⟩ => show t.val / 16 = win0_2.index t 0 * 1 + 1 * (y 0).val; omega
  | ⟨1, _⟩ => show (t.val / 4 % 4) * 1024 + (y 2).val = win0_2.index t 2 * 1024 + 1 * (y 2).val; omega

/-- What the last point of a batch entry writes back into the second output is its block of the whole array. -/
theorem flushed_eq3 (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  obtain ⟨e0, e1, e2⟩ := idx3 t
  show (cfg0.win 3).cut (grid0.coords t) ((dats m 0 c).after 3 t) = _
  rw [after0_3]
  funext y
  rw [View.read_apply]
  have hy0 : (y 0).val < 1 := (y 0).isLt
  have hy1 : (y 1).val < 1 := (y 1).isLt
  have hy2 : (y 2).val < 4096 := (y 2).isLt
  show (outsAt0 m c t.val t.isLt).2.1 ((cfg0.win 3).xinj (grid0.coords t) y) = G3 m c (((cfg0.win 3).blk t).view.emb y)
  have hx : (cfg0.win 3).xinj (grid0.coords t) y = ix3 (0 : Fin 1) (0 : Fin 1) (⟨(y 2).val, hy2⟩ : Fin 4096) := by
    funext a
    apply Fin.ext
    match a with
    | ⟨0, _⟩ => show (y 0).val = 0; omega
    | ⟨1, _⟩ => show (y 1).val = 0; omega
    | ⟨2, _⟩ => rfl
  refine (congrArg (outsAt0 m c t.val t.isLt).2.1 hx).trans ?_
  refine (Inv.cols_at m c t h15 ⟨(y 2).val, hy2⟩).trans ?_
  unfold G3
  refine congrArg (colMin _ _) ?_
  funext a
  apply Fin.ext
  match a with
  | ⟨0, _⟩ => show t.val / 16 = win0_3.index t 0 * 1 + 1 * (y 0).val; omega
  | ⟨1, _⟩ => show (y 2).val = win0_3.index t 2 * 4096 + 1 * (y 2).val; omega

/-- Every entry (b, 0, n) of the first output lies in the block written back at the end of the sweep of tile n / 1024
    of batch entry b. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN := N64
  have h0 : (i 0).val < 4 := (i 0).isLt
  have h1 : (i 1).val < 1 := (i 1).isLt
  have h2 : (i 2).val < 4096 := (i 2).isLt
  obtain ⟨t, ht⟩ : ∃ t : Fin cfg0.N, t.val = 16 * (i 0).val + 4 * ((i 2).val / 1024) + 3 :=
    ⟨⟨16 * (i 0).val + 4 * ((i 2).val / 1024) + 3, by omega⟩, rfl⟩
  obtain ⟨e0, e1, e2⟩ := idx2 t
  refine ⟨t, (flush0_2 t).mpr (by omega), ?_⟩
  show i ∈ ((View.whole main_v1_0).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 1 ≤ (i 1).val ∧ (i 1).val < win0_2.index t 1 * 1 + 1; omega
  | ⟨2, _⟩ => show win0_2.index t 2 * 1024 ≤ (i 2).val ∧ (i 2).val < win0_2.index t 2 * 1024 + 1024; omega

/-- Every entry (b, 0, k) of the second output lies in the block written back at the last point of batch entry b. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN := N64
  have h0 : (i 0).val < 4 := (i 0).isLt
  have h1 : (i 1).val < 1 := (i 1).isLt
  have h2 : (i 2).val < 4096 := (i 2).isLt
  obtain ⟨t, ht⟩ : ∃ t : Fin cfg0.N, t.val = 16 * (i 0).val + 15 :=
    ⟨⟨16 * (i 0).val + 15, by omega⟩, rfl⟩
  obtain ⟨e0, e1, e2⟩ := idx3 t
  refine ⟨t, (flush0_3 t).mpr (by omega), ?_⟩
  show i ∈ ((View.whole main_v1_1).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 4096 ≤ (i 2).val ∧ (i 2).val < win0_3.index t 2 * 4096 + 4096; omega

/-- So the first output ends holding the nearest distances from cloud one, -/
theorem final2 (c : Dev nD) : (dats m 0 c).arrAt 2 cfg0.N = G2 m c :=
  (dats m 0 c).arrAt_eq_of_cover 2 (G2 m c) (flushed_eq2 m c) (cover2 c)

/-- and the second the nearest distances from cloud two. -/
theorem final3 (c : Dev nD) : (dats m 0 c).arrAt 3 cfg0.N = G3 m c :=
  (dats m 0 c).arrAt_eq_of_cover 3 (G3 m c) (flushed_eq3 m c) (cover3 c)

/-- Read as a table over (b, n), dropping the unit axis, the first output is the table of nearest distances itself, -/
theorem reshape2 (c : Dev nD) :
    shapeCast S4x4096 (G2 m c) shapeCasts_S4x1x4096_S4x4096
      = rowMin (m ((c : Thread nD τ).loc main_arg0)) (m ((c : Thread nD τ).loc main_arg1)) := by
  funext j
  obtain ⟨b, n, rfl⟩ : ∃ (b : Fin 4) (n : Fin 4096), j = ix2 b n := ⟨j 0, j 1, eq_ix2 j⟩
  refine (shapeCast_apply (s := S4x1x4096) (t := S4x4096) (G2 m c) shapeCasts_S4x1x4096_S4x4096 (ix2 b n)
    (ix3 b (0 : Fin 1) n) ?_).trans ?_
  · rw [Shape.rowMajor_val_three, Shape.rowMajor_val_two]
    show ((b.val * 1 + 0) * 4096 + n.val) = b.val * 4096 + n.val
    omega
  · rfl

/-- and so is the second. -/
theorem reshape3 (c : Dev nD) :
    shapeCast S4x4096 (G3 m c) shapeCasts_S4x1x4096_S4x4096
      = colMin (m ((c : Thread nD τ).loc main_arg0)) (m ((c : Thread nD τ).loc main_arg1)) := by
  funext j
  obtain ⟨b, n, rfl⟩ : ∃ (b : Fin 4) (n : Fin 4096), j = ix2 b n := ⟨j 0, j 1, eq_ix2 j⟩
  refine (shapeCast_apply (s := S4x1x4096) (t := S4x4096) (G3 m c) shapeCasts_S4x1x4096_S4x4096 (ix2 b n)
    (ix3 b (0 : Fin 1) n) ?_).trans ?_
  · rw [Shape.rowMajor_val_three, Shape.rowMajor_val_two]
    show ((b.val * 1 + 0) * 4096 + n.val) = b.val * 4096 + n.val
    omega
  · rfl

/-- The scalar the operations after the grid leave: the two tables' row sums, added, averaged over the points and then
    over the batch. -/
theorem tail_eq (c : Dev nD) :
    Pipeline.afterTail₀ cfgs (dats m) 0 (V0 m) [hostOps1] c main_v10
      = Cert.Chamfer.tail (rowMin (m ((c.tc : Thread nD τ).loc main_arg0)) (m ((c.tc : Thread nD τ).loc main_arg1)))
                              (colMin (m ((c.tc : Thread nD τ).loc main_arg0)) (m ((c.tc : Thread nD τ).loc main_arg1)))
              Cert.KernelIdeal.Facts₀.reducesTo_S4x4096_S4_d1 Cert.KernelIdeal.Facts₀.h_S_
              Cert.KernelIdeal.Facts₀.bcast_S_S4 Cert.KernelIdeal.Facts₀.reducesTo_S4_S_d0 := by
  have hW2 : Pipeline.withArrays (cfgs 0).spec c (V0 m c) (fun w => (dats m 0 c).arrAt w (cfgs 0).N) (Proc.devRef .tc main_v1_0)
      = G2 m c := (Pipeline.withArrays_arr spec0 launch0.win.arr_inj c _ _ 2).trans (final2 m c)
  have hW3 : Pipeline.withArrays (cfgs 0).spec c (V0 m c) (fun w => (dats m 0 c).arrAt w (cfgs 0).N) (Proc.devRef .tc main_v1_1)
      = G3 m c := (Pipeline.withArrays_arr spec0 launch0.win.arr_inj c _ _ 3).trans (final3 m c)
  unfold Pipeline.afterTail₀
  show StableHlo.after hostOps1 _ (Proc.devRef .tc main_v10) = _
  after_results
  change Cert.Chamfer.tail _ _ Cert.KernelIdeal.Facts₀.reducesTo_S4x4096_S4_d1 Cert.KernelIdeal.Facts₀.h_S_
    Cert.KernelIdeal.Facts₀.bcast_S_S4 Cert.KernelIdeal.Facts₀.reducesTo_S4_S_d0 = _
  refine congrArg₂ (fun R C => Cert.Chamfer.tail R C Cert.KernelIdeal.Facts₀.reducesTo_S4x4096_S4_d1
    Cert.KernelIdeal.Facts₀.h_S_ Cert.KernelIdeal.Facts₀.bcast_S_S4 Cert.KernelIdeal.Facts₀.reducesTo_S4_S_d0) ?_ ?_
  · exact (congrArg (fun W => shapeCast S4x4096 W shapeCasts_S4x1x4096_S4x4096) hW2).trans (reshape2 m c)
  · exact (congrArg (fun W => shapeCast S4x4096 W shapeCasts_S4x1x4096_S4x4096) hW3).trans (reshape3 m c)

/-- The kernel's run, read: the scalar result is the mean nearest distance of the two clouds both ways, and the two
    clouds are left as they were. -/
theorem kernel_run : θ_run defs (onTc (τ := τ) (main (F := Ideal))) ⟨m, fun _ => 0, ρ⟩ fun r => ∀ c : Dev nD,
      r.2.mem ((c.tc : Thread nD τ).loc main_v10)
          = Cert.Chamfer.tail (rowMin (m ((c.tc : Thread nD τ).loc main_arg0)) (m ((c.tc : Thread nD τ).loc main_arg1)))
                              (colMin (m ((c.tc : Thread nD τ).loc main_arg0)) (m ((c.tc : Thread nD τ).loc main_arg1)))
              Cert.KernelIdeal.Facts₀.reducesTo_S4x4096_S4_d1 Cert.KernelIdeal.Facts₀.h_S_
              Cert.KernelIdeal.Facts₀.bcast_S_S4 Cert.KernelIdeal.Facts₀.reducesTo_S4_S_d0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Chamfer.KValue

end
-- ==== Proof.ChamferRef.lean ====
/-
  The reference side of the Chamfer distance. The reference program builds the whole table of distances
  `√(Σ_d (A b n d − B b m d)²)` and takes its minimum along each of the two point axes, from `+∞`. Read one entry at a
  time the table is the root of the squared distance of the specification; a minimum along one axis is the fold of
  `min` from `⊤` over that axis's coordinates; so the two tables of minima are the specification's `rowMin` and
  `colMin`, and what the program does with them afterwards is the specification's `tail`, term for term.
-/
import proofs.«140225_j17952963297894_2_alg».proof.Proof.Gen.ReferenceIdeal.Read
import proofs.«140225_j17952963297894_2_alg».proof.Proof.ChamferSpec
import Idealize.ShloMosaic.PureOps.Reduce
import Idealize.ShloMosaic.Lib.ValueIdx

noncomputable section

namespace Cert.Chamfer.Ref

open Cert.ReferenceIdeal Cert.ReferenceIdeal.Gen Idealize.ShloMosaic Idealize.ShloMosaic.TcCoe Idealize.SL.Sem Idealize.ShloMosaic.StableHlo
open Idealize.ShloMosaic.ValueIdx Cert.Chamfer

/-- The index (b, n) of a table of minima with the coordinate `m` put back on the last axis is (b, n, m). -/
private theorem lift_last (h : (⟨3, ![4, 4096, 4096]⟩ : Shape).Reduces [2] (⟨2, ![4, 4096]⟩ : Shape)) (b : Fin 4) (n : Fin 4096)
    (m : Fin ((⟨3, ![4, 4096, 4096]⟩ : Shape).size 2)) :
    h.lift (ix2 b n) m = ix3 b n (⟨m.val, m.isLt⟩ : Fin 4096) := by
  funext c; apply Fin.ext
  fin_cases c <;> rfl

/-- The index (b, m) of a table of minima with the coordinate `n` put back on the middle axis is (b, n, m). -/
private theorem lift_mid (h : (⟨3, ![4, 4096, 4096]⟩ : Shape).Reduces [1] (⟨2, ![4, 4096]⟩ : Shape)) (b : Fin 4) (m : Fin 4096)
    (n : Fin ((⟨3, ![4, 4096, 4096]⟩ : Shape).size 1)) :
    h.lift (ix2 b m) n = ix3 b (⟨n.val, n.isLt⟩ : Fin 4096) m := by
  funext c; apply Fin.ext
  fin_cases c <;> rfl

/-- One entry of the reference's table of distances: the root of the squared distance between point `n` of the first
    cloud and point `m` of the second. The sum over the three coordinates starts from the zero word, which is `0`. -/
private theorem dist_apply (A B : (⟨Cert.ReferenceIdeal.S4x4096x3, .f32⟩ : BufTy).Contents (Elt Ideal)) (b : Fin 4) (n m : Fin 4096) :
    Cert.ReferenceIdeal.Read.val_main_v5 (F := Ideal) A B (ix3 b n m) = Ideal.sqrt (sqDist A B b n m) := by
  rw [Read.val_main_v5_apply, Read.val_main_call0_v1_apply, Read.val_main_call0_cst_apply]
  simp only [Read.val_main_call0_v0_apply, Read.val_main_v4_apply, Read.val_main_v2_apply, Read.val_main_v0_apply,
    Read.val_main_v3_apply, Read.val_main_v1_apply, Ideal.hostUnary_sqrt_def, Ideal.mulf_def, Ideal.subf_def, Ideal.ofBits_def]
  have h0 : Ideal.ofBits .f32 0x00000000#32 = 0 := by simp [Ideal.ofBits, Ideal.ieee]
  rw [h0, zero_add]
  unfold sqDist sqr
  refine congrArg Ideal.sqrt (Finset.sum_congr rfl fun k _ => ?_)
  have ea : Read.idx_main_v0 (Read.idx_main_v2 (Read.idx_main_call0_v1 (ix3 b n m) k)) = ix3 b n k :=
    funext fun a => Fin.ext (by match a with | ⟨0, _⟩ => rfl | ⟨1, _⟩ => rfl | ⟨2, _⟩ => rfl)
  have eb : Read.idx_main_v1 (Read.idx_main_v3 (Read.idx_main_call0_v1 (ix3 b n m) k)) = ix3 b m k :=
    funext fun a => Fin.ext (by match a with | ⟨0, _⟩ => rfl | ⟨1, _⟩ => rfl | ⟨2, _⟩ => rfl)
  rw [ea, eb]

/-- The `+∞` word is `⊤`. -/
private theorem inf_word : Ideal.ofBits .f32 0x7F800000#32 = (⊤ : EReal) := by simp [Ideal.ofBits, Ideal.ieee]

/-- The reference's minimum along the second cloud's axis is the specification's `rowMin`. -/
theorem ref_rows (A B : (⟨Cert.ReferenceIdeal.S4x4096x3, .f32⟩ : BufTy).Contents (Elt Ideal)) :
    Cert.ReferenceIdeal.Read.val_main_v6 (F := Ideal) A B = Cert.Chamfer.rowMin A B := by
  funext i
  obtain ⟨b, n, rfl⟩ : ∃ (b : Fin 4) (n : Fin 4096), i = ix2 b n := ⟨i 0, i 1, eq_ix2 i⟩
  rw [rowMin_apply]
  unfold Read.val_main_v6
  have hr : (⟨3, ![4, 4096, 4096]⟩ : Shape).Reduces [2] (⟨2, ![4, 4096]⟩ : Shape) := by decide
  rw [Host.reduce_eq_fold_single FloatOps.minimumf _ _ reducesTo_S4x4096x4096_S4x4096_d2 hr h_S_]
  have hf : (Read.val_main_v5 (F := Ideal) A B ∘ hr.lift (ix2 b n))
      = fun m : Fin 4096 => Ideal.sqrt (sqDist A B b n m) :=
    funext fun m => (congrArg (Read.val_main_v5 (F := Ideal) A B) (lift_last hr b n m)).trans (dist_apply A B b n ⟨m.val, m.isLt⟩)
  rw [hf, Read.val_main_cst_apply, Ideal.ofBits_def, inf_word]
  rfl

/-- The reference's minimum along the first cloud's axis is the specification's `colMin`. -/
theorem ref_cols (A B : (⟨Cert.ReferenceIdeal.S4x4096x3, .f32⟩ : BufTy).Contents (Elt Ideal)) :
    Cert.ReferenceIdeal.Read.val_main_v7 (F := Ideal) A B = Cert.Chamfer.colMin A B := by
  funext i
  obtain ⟨b, m, rfl⟩ : ∃ (b : Fin 4) (m : Fin 4096), i = ix2 b m := ⟨i 0, i 1, eq_ix2 i⟩
  rw [colMin_apply]
  unfold Read.val_main_v7
  have hr : (⟨3, ![4, 4096, 4096]⟩ : Shape).Reduces [1] (⟨2, ![4, 4096]⟩ : Shape) := by decide
  rw [Host.reduce_eq_fold_single FloatOps.minimumf _ _ reducesTo_S4x4096x4096_S4x4096_d1 hr h_S_]
  have hf : (Read.val_main_v5 (F := Ideal) A B ∘ hr.lift (ix2 b m))
      = fun n : Fin 4096 => Ideal.sqrt (sqDist A B b n m) :=
    funext fun n => (congrArg (Read.val_main_v5 (F := Ideal) A B) (lift_mid hr b m n)).trans (dist_apply A B b ⟨n.val, n.isLt⟩ m)
  rw [hf, Read.val_main_cst_0_apply, Ideal.ofBits_def, inf_word]
  rfl

/-- What the reference returns is the specification's `tail` of the two tables of minima: the rest of the program is
    the same chain of sums and divisions, over the same shapes. -/
theorem ref_result (A B : (⟨Cert.ReferenceIdeal.S4x4096x3, .f32⟩ : BufTy).Contents (Elt Ideal)) :
    Cert.ReferenceIdeal.Read.val_main_v14 (F := Ideal) A B
      = Cert.Chamfer.tail (Cert.Chamfer.rowMin A B) (Cert.Chamfer.colMin A B)
          Cert.ReferenceIdeal.Facts₀.reducesTo_S4x4096_S4_d1 Cert.ReferenceIdeal.Facts₀.h_S_
          Cert.ReferenceIdeal.Facts₀.bcast_S_S4 Cert.ReferenceIdeal.Facts₀.reducesTo_S4_S_d0 := by
  rw [← ref_rows A B, ← ref_cols A B]
  rfl

end Cert.Chamfer.Ref

end
-- ==== Proof.lean ====
/-
  The certificate of the Chamfer-distance kernel against its reference: both end with the same scalar, the mean
  over the four batch entries of (the sum over cloud one of the distance to the nearest point of cloud two, plus
  the sum over cloud two of the distance to the nearest point of cloud one) / 8192.

  The kernel tiles the 4096 × 4096 table of squared distances into 1024 × 1024 tiles over a grid (batch entry, tile
  of cloud one, tile of cloud two), folds each tile into two running minima it carries from grid point to grid point,
  and only at the end of a sweep clamps at zero and takes the root; the reference takes the root of every entry and
  then the minima. The two agree over the extended reals because a sum of squares is never negative, (x − y)² is
  (y − x)², and the root is monotone and so commutes with the minimum of a finite family (ChamferSpec). What each
  tile contributes is read off the body's arithmetic (ChamferPayload) and what each control case of the body leaves in
  the carried buffers off the body's stores (ChamferPieces); the two conditions that describe the buffers pass from
  each grid point to the next (ChamferInvariant), which gives the two output arrays after the region and, through the
  host operations both programs share, the result (ChamferValue). The reference's two minima are the same functions
  of the arguments (ChamferRef). The ideal pass rewrote nothing, so the preservation claim is trivial; the three
  frames are the programs' runs with the results dropped.
-/
import proofs.«140225_j17952963297894_2_alg».proof.Defs
import proofs.«140225_j17952963297894_2_alg».proof.Proof.Gen.Kernel
import proofs.«140225_j17952963297894_2_alg».proof.Proof.Gen.Kernel.Frame
import proofs.«140225_j17952963297894_2_alg».proof.Proof.Gen.KernelIdeal
import proofs.«140225_j17952963297894_2_alg».proof.Proof.Gen.KernelIdeal.Frame
import proofs.«140225_j17952963297894_2_alg».proof.Proof.Gen.ReferenceIdeal
import proofs.«140225_j17952963297894_2_alg».proof.Proof.Gen.ReferenceIdeal.Read
import proofs.«140225_j17952963297894_2_alg».proof.Proof.Gen.Pre_finite_inputs
import proofs.«140225_j17952963297894_2_alg».proof.Proof.ChamferValue
import proofs.«140225_j17952963297894_2_alg».proof.Proof.ChamferRef

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the shared averaging applied to the two tables of nearest distances of the argument clouds. -/
theorem algebraic : Cert.algebraic_KernelIdeal_ReferenceIdeal := by
  intro m ρ m' ρ' _ hagree
  refine ⟨_, Cert.Chamfer.KValue.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Chamfer.Ref.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
